-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x128 : Shape := ⟨2, ![128, 128]⟩
abbrev S1x128 : Shape := ⟨2, ![1, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S16384x128 .f32) (main_arg1 : FVec F S16384x128 .f32) (main_arg2 : FVec F S128x128 .f32) (main_arg3 : FVec F S128x128 .f32) (main_arg4 : FVec F S1x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16384x128 : Shape := ⟨2, ![16384, 128]⟩
abbrev S128x128 : Shape := ⟨2, ![128, 128]⟩
abbrev S1x128 : Shape := ⟨2, ![1, 128]⟩
abbrev S16384x128x128 : Shape := ⟨3, ![16384, 128, 128]⟩
abbrev S128x128x128 : Shape := ⟨3, ![128, 128, 128]⟩
abbrev S128x128x1 : Shape := ⟨3, ![128, 128, 1]⟩
abbrev S1x128x128 : Shape := ⟨3, ![1, 128, 128]⟩
abbrev S1x1x128 : Shape := ⟨3, ![1, 1, 128]⟩

abbrev nBuf : Space → Nat
  | .hbm => 6
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S16384x128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128x128, .f32⟩
  | .local _ .vmem, ⟨8, _⟩ => ⟨S128x128x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  shapeCasts_S1x128_S1x1x128 : S1x128.ShapeCasts S1x1x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S16384x128.size a
  hwx0_0 : ∀ i : grid0.Coords, EltTy.bits .f32 = 32 ∨ (Rect.block (s := S16384x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S16384x128.size a
  hwx0_1 : ∀ i : grid0.Coords, EltTy.bits .f32 = 32 ∨ (Rect.block (s := S16384x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128x128.size a ≤ S16384x128x128.size a
  hwx0_5 : ∀ i : grid0.Coords, EltTy.bits .f32 = 32 ∨ (Rect.block (s := S16384x128x128) S128x128x128.size (cc0_transform_5 i) (hinb0_5 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x128 : Shape := ⟨2, ![128, 128]⟩
abbrev S1x128 : Shape := ⟨2, ![1, 128]⟩
abbrev S16384x128x1 : Shape := ⟨3, ![16384, 128, 1]⟩
abbrev S1x128x128 : Shape := ⟨3, ![1, 128, 128]⟩
abbrev S16384x128x128 : Shape := ⟨3, ![16384, 128, 128]⟩
abbrev S_ : Shape := ⟨0, ![]⟩
abbrev S1x1x128 : Shape := ⟨3, ![1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x128, .f32⟩
  | .hbm, ⟨3, _⟩ => ⟨S128x128, .f32⟩
  | .hbm, ⟨4, _⟩ => ⟨S1x128, .f32⟩
  | .hbm, ⟨5, _⟩ => ⟨S16384x128x1, .f32⟩
  | .hbm, ⟨6, _⟩ => ⟨S1x128x128, .f32⟩
  | .hbm, ⟨7, _⟩ => ⟨S16384x128x128, .f32⟩
  | .hbm, ⟨8, _⟩ => ⟨S16384x128x128, .f32⟩
  | .hbm, ⟨9, _⟩ => ⟨S16384x128x128, .f32⟩
  | .hbm, ⟨10, _⟩ => ⟨S1x128x128, .f32⟩
  | .hbm, ⟨11, _⟩ => ⟨S16384x128x128, .f32⟩
  | .hbm, ⟨12, _⟩ => ⟨S16384x128x128, .f32⟩
  | .hbm, ⟨13, _⟩ => ⟨S16384x128x1, .f32⟩
  | .hbm, ⟨14, _⟩ => ⟨S_, .f32⟩
  | .hbm, ⟨15, _⟩ => ⟨S16384x128x1, .f32⟩
  | .hbm, ⟨16, _⟩ => ⟨S16384x128x1, .f32⟩
  | .hbm, ⟨17, _⟩ => ⟨S16384x128x128, .f32⟩
  | .hbm, ⟨18, _⟩ => ⟨S16384x128x128, .f32⟩
  | .hbm, ⟨19, _⟩ => ⟨S1x1x128, .f32⟩
  | .hbm, ⟨20, _⟩ => ⟨S16384x128x128, .f32⟩
  | .hbm, ⟨21, _⟩ => ⟨S16384x128x128, .f32⟩
  | .hbm, ⟨22, _⟩ => ⟨S16384x128x128, .f32⟩
  | .hbm, ⟨23, _⟩ => ⟨S16384x128x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S128x128_S1x128x128_1_2 : S128x128.BroadcastsInDim S1x128x128 (![1, 2] : Fin 2 → Fin S1x128x128.rank)
  bcast_S16384x128x1_S16384x128x128_0_1_2 : S16384x128x1.BroadcastsInDim S16384x128x128 (![0, 1, 2] : Fin 3 → Fin S16384x128x128.rank)
  bcast_S1x128x128_S16384x128x128_0_1_2 : S1x128x128.BroadcastsInDim S16384x128x128 (![0, 1, 2] : Fin 3 → Fin S16384x128x128.rank)
  bcast_S_S16384x128x1 : S_.BroadcastsInDim S16384x128x1 (![] : Fin 0 → Fin S16384x128x1.rank)
  bcast_S1x128_S1x1x128_1_2 : S1x128.BroadcastsInDim S1x1x128 (![1, 2] : Fin 2 → Fin S1x1x128.rank)
  bcast_S1x1x128_S16384x128x128_0_1_2 : S1x1x128.BroadcastsInDim S16384x128x128 (![0, 1, 2] : Fin 3 → Fin S16384x128x128.rank)

variable [Facts₀]

class Facts : Prop extends Facts₀ where

variable [Facts]
-- ==== Proof.Blend.lean ====
/-
  The function both programs compute, stated once over the argument arrays.

  The inputs are a table of numbers `x[r, c]` (16384 rows, 128 columns), blend weights `mk[r, c]` of the same
  shape, a per-column weight row `W[c, h]` and bias row `b[c, h]` (128 columns, 128 hidden units) and one
  embedding row `me[0, h]`. Each number is first lifted to a hidden vector by its column's affine map,
  `x[r, c] * W[c, h] + b[c, h]`, and then blended with the embedding row by the weight of its cell:

      out[r, c, h] = (x[r, c] * W[c, h] + b[c, h]) * (1 - mk[r, c]) + me[0, h] * mk[r, c].

  An entry of the result depends on ONE entry of each input: `x` and `mk` at (r, c), `W` and `b` at (c, h),
  `me` at (0, h). The definition below says exactly that, with the operations in the order written above; it is
  stated for any float interpretation, so no law of arithmetic is used anywhere, only which entry is read where.
-/
import Idealize.ShloMosaic.Lib.ValueIdx

noncomputable section

namespace Cert.Blend

open Idealize.ShloMosaic

variable {F : FTy → Type} [FloatOps F]

/-- The shape of `x` and of the blend weights: [row, column]. -/
abbrev Cells : Shape := ⟨2, ![16384, 128]⟩
/-- The shape of the weight and bias tables: [column, hidden unit]. -/
abbrev Table : Shape := ⟨2, ![128, 128]⟩
/-- The shape of the embedding: one row over the hidden units. -/
abbrev Row : Shape := ⟨2, ![1, 128]⟩
/-- The shape of the result: [row, column, hidden unit]. -/
abbrev Cube : Shape := ⟨3, ![16384, 128, 128]⟩

/-- The cell (r, c) that the entry (r, c, h) belongs to. -/
abbrev cell (i : Cube.Idx) : Cells.Idx := fun a => match a with
  | ⟨0, _⟩ => ⟨(i 0).val, (i 0).isLt⟩
  | ⟨1, _⟩ => ⟨(i 1).val, (i 1).isLt⟩

/-- The table entry (c, h) that the entry (r, c, h) uses. -/
abbrev unit (i : Cube.Idx) : Table.Idx := fun a => match a with
  | ⟨0, _⟩ => ⟨(i 1).val, (i 1).isLt⟩
  | ⟨1, _⟩ => ⟨(i 2).val, (i 2).isLt⟩

/-- The embedding entry (0, h) that the entry (r, c, h) uses. -/
abbrev hidden (i : Cube.Idx) : Row.Idx := fun a => match a with
  | ⟨0, _⟩ => ⟨0, Nat.one_pos⟩
  | ⟨1, _⟩ => ⟨(i 2).val, (i 2).isLt⟩

/-- `out[r, c, h] = (x[r, c] * W[c, h] + b[c, h]) * (1 - mk[r, c]) + me[0, h] * mk[r, c]`, the constant one
    being the float whose bit pattern is `0x3F800000`. -/
def blend (x mk : Cells.Idx → Elt F .f32) (W b : Table.Idx → Elt F .f32) (me : Row.Idx → Elt F .f32) :
    Cube.Idx → Elt F .f32 := fun i =>
  FloatOps.addf
    (FloatOps.mulf (FloatOps.addf (FloatOps.mulf (x (cell i)) (W (unit i))) (b (unit i)))
      (FloatOps.subf (Scalar.ofBits .f32 0x3F800000#32) (mk (cell i))))
    (FloatOps.mulf (me (hidden i)) (mk (cell i)))

end Cert.Blend

end
-- ==== Proof.KernelBlend.lean ====
/-
  The kernel's result array is `blend` of its arguments.

  The kernel walks the rows in 128 steps. At step `t` it is handed rows `128 t … 128 t + 127` of `x` and of the
  blend weights, the whole weight table, the whole bias table and the embedding row, and it writes back rows
  `128 t … 128 t + 127` of the result (all columns, all hidden units). The imported value module already says what
  that written block holds in terms of the five blocks it was handed: at block coordinates (p, c, h),

      (xblock[p, c] * W[c, h] + b[c, h]) * (1 - mkblock[p, c]) + me[0, h] * mkblock[p, c].

  Three facts turn this into a statement about the whole arrays.
  * Where a block sits. Entry (p, c) of step `t`'s block of `x` (or of the weights) is entry (128 t + p, c) of the
    array; the two tables and the embedding row are handed over whole at every step, so their block coordinates are
    their array coordinates. This is read off the printed index maps, which are decided once for the 128 steps.
  * Hence what step `t` writes at block coordinates (p, c, h) is `blend` of the arrays at (128 t + p, c, h), which
    is the array position that block entry is written back to: step `t` writes block `t` of ONE whole-array
    function, `blend` of the arguments.
  * The blocks fill the array: row `r` lies in the block of step `r / 128`, and every column and hidden unit is in
    every block.
  A result array whose every entry was written by some step, each step writing its block of one function, holds
  that function when the steps are over.
-/
import proofs.«107322_j69664369541889_2_alg».proof.Proof.Gen.KernelIdeal.Value
import proofs.«107322_j69664369541889_2_alg».proof.Proof.Blend
import Idealize.ShloMosaic.Lib.Pipeline.Value

noncomputable section

namespace Cert.KernelIdeal.BlendValue

open Cert.KernelIdeal Cert.KernelIdeal.Gen Cert.KernelIdeal.Value Cert.Blend
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl

/-- Which block each operand is handed at step `t`, per axis: block `t` of the rows of `x` and of the weights and
    of the result, block 0 along every other axis of every operand. Decided over the 128 steps. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## A block entry is an array entry -/

/-- Entry (p, c) of step `t`'s block of `x` is entry (128 t + p, c) of `x`. -/
theorem x_block (c : Dev nD) (t : Fin cfg0.N) (y : S128x128.Idx) (k : S16384x128.Idx)
    (h0 : (k 0).val = t.val * 128 + (y 0).val) (h1 : (k 1).val = (y 1).val) :
    (iblk m c 0 t : Vec F S128x128 .f32) y = V m c main_arg0 k := by
  obtain ⟨e0, e1, -⟩ := block_indices t
  show V m c main_arg0 (((cfg0.win 0).blk t).view.emb y) = V m c main_arg0 k
  congr 1
  funext a; apply Fin.ext
  match a with
  | ⟨0, _⟩ => show win0_0.index t (0 : Fin 2) * 128 + 1 * (y 0).val = (k 0).val; omega
  | ⟨1, _⟩ => show win0_0.index t (1 : Fin 2) * 128 + 1 * (y 1).val = (k 1).val; omega

/-- Entry (p, c) of step `t`'s block of the blend weights is entry (128 t + p, c) of the weights. -/
theorem mk_block (c : Dev nD) (t : Fin cfg0.N) (y : S128x128.Idx) (k : S16384x128.Idx)
    (h0 : (k 0).val = t.val * 128 + (y 0).val) (h1 : (k 1).val = (y 1).val) :
    (iblk m c 1 t : Vec F S128x128 .f32) y = V m c main_arg1 k := by
  obtain ⟨-, -, e0, e1, -⟩ := block_indices t
  show V m c main_arg1 (((cfg0.win 1).blk t).view.emb y) = V m c main_arg1 k
  congr 1
  funext a; apply Fin.ext
  match a with
  | ⟨0, _⟩ => show win0_1.index t (0 : Fin 2) * 128 + 1 * (y 0).val = (k 0).val; omega
  | ⟨1, _⟩ => show win0_1.index t (1 : Fin 2) * 128 + 1 * (y 1).val = (k 1).val; omega

/-- The weight table is handed over whole: its block entry (c, h) is its entry (c, h). -/
theorem W_block (c : Dev nD) (t : Fin cfg0.N) (y : S128x128.Idx) (k : S128x128.Idx)
    (h0 : (k 0).val = (y 0).val) (h1 : (k 1).val = (y 1).val) :
    (iblk m c 2 t : Vec F S128x128 .f32) y = V m c main_arg2 k := by
  obtain ⟨-, -, -, -, e0, e1, -⟩ := block_indices t
  show V m c main_arg2 (((cfg0.win 2).blk t).view.emb y) = V m c main_arg2 k
  congr 1
  funext a; apply Fin.ext
  match a with
  | ⟨0, _⟩ => show win0_2.index t (0 : Fin 2) * 128 + 1 * (y 0).val = (k 0).val; omega
  | ⟨1, _⟩ => show win0_2.index t (1 : Fin 2) * 128 + 1 * (y 1).val = (k 1).val; omega

/-- The bias table is handed over whole: its block entry (c, h) is its entry (c, h). -/
theorem b_block (c : Dev nD) (t : Fin cfg0.N) (y : S128x128.Idx) (k : S128x128.Idx)
    (h0 : (k 0).val = (y 0).val) (h1 : (k 1).val = (y 1).val) :
    (iblk m c 3 t : Vec F S128x128 .f32) y = V m c main_arg3 k := by
  obtain ⟨-, -, -, -, -, -, e0, e1, -⟩ := block_indices t
  show V m c main_arg3 (((cfg0.win 3).blk t).view.emb y) = V m c main_arg3 k
  congr 1
  funext a; apply Fin.ext
  match a with
  | ⟨0, _⟩ => show win0_3.index t (0 : Fin 2) * 128 + 1 * (y 0).val = (k 0).val; omega
  | ⟨1, _⟩ => show win0_3.index t (1 : Fin 2) * 128 + 1 * (y 1).val = (k 1).val; omega

/-- The embedding row is handed over whole: its block entry (0, h) is its entry (0, h). -/
theorem me_block (c : Dev nD) (t : Fin cfg0.N) (y : S1x128.Idx) (k : S1x128.Idx)
    (h0 : (k 0).val = (y 0).val) (h1 : (k 1).val = (y 1).val) :
    (iblk m c 4 t : Vec F S1x128 .f32) y = V m c main_arg4 k := by
  obtain ⟨-, -, -, -, -, -, -, -, e0, e1, -⟩ := block_indices t
  show V m c main_arg4 (((cfg0.win 4).blk t).view.emb y) = V m c main_arg4 k
  congr 1
  funext a; apply Fin.ext
  match a with
  | ⟨0, _⟩ => show win0_4.index t (0 : Fin 2) * 1 + 1 * (y 0).val = (k 0).val; omega
  | ⟨1, _⟩ => show win0_4.index t (1 : Fin 2) * 128 + 1 * (y 1).val = (k 1).val; omega

/-! ## What a step writes is its block of `blend` -/

/-- The written block's entry at block coordinates `j`, as the imported module states it over the five handed
    blocks, is `blend` of the arrays at `i` as soon as each block entry it reads is the array entry `blend` reads
    at `i`: the two expressions have the same operations in the same order. (The weights' block is read twice, both
    times at the entry's cell, so one hypothesis serves both reads.) -/
theorem entry_eq_blend (X MK : Cells.Idx → Elt F .f32) (Wt Bt : Table.Idx → Elt F .f32) (ME : Row.Idx → Elt F .f32)
    (P0 P1 P2 P3 : Vec F S128x128 .f32) (P4 : Vec F S1x128 .f32) (j : S128x128x128.Idx) (i : Cube.Idx)
    (h0 : P0 (ix5_0 j) = X (cell i)) (h1 : P1 (ix5_1 j) = Wt (unit i)) (h2 : P2 (ix5_2 j) = Bt (unit i))
    (h3 : P3 (ix5_3 j) = MK (cell i)) (h4 : P4 (ix5_4 j) = ME (hidden i)) :
    E5 P0 P1 P2 P3 P4 j = blend X MK Wt Bt ME i := by
  show FloatOps.addf (FloatOps.mulf (FloatOps.addf (FloatOps.mulf (P0 (ix5_0 j)) (P1 (ix5_1 j))) (P2 (ix5_2 j)))
      (FloatOps.subf (Scalar.ofBits .f32 0x3F800000#32) (P3 (ix5_3 j)))) (FloatOps.mulf (P4 (ix5_4 j)) (P3 (ix5_5 j)))
    = FloatOps.addf (FloatOps.mulf (FloatOps.addf (FloatOps.mulf (X (cell i)) (Wt (unit i))) (Bt (unit i)))
      (FloatOps.subf (Scalar.ofBits .f32 0x3F800000#32) (MK (cell i)))) (FloatOps.mulf (ME (hidden i)) (MK (cell i)))
  rw [h0, h1, h2, h3, h4]

/-- WHAT STEP `t` WRITES BACK is block `t` of `blend` of the argument arrays. -/
theorem flushed_eq_blend (c : Dev nD) (t : Fin cfg0.N) :
    (dats m 0 c).flushed 5 t = ((cfg0.win 5).blk t).view.read (Elt F)
      (blend (V m c main_arg0) (V m c main_arg1) (V m c main_arg2) (V m c main_arg3) (V m c main_arg4)) := by
  show (cfg0.win 5).cut (grid0.coords t) ((dats m 0 c).after 5 t) = _
  rw [after0_5]
  unfold out0_5
  simp only [View.ld_unit_zero (S := S128x128) zero2, View.ld_unit_zero (S := S1x128) zero2]
  obtain ⟨-, -, -, -, -, -, -, -, -, -, e0, e1, e2⟩ := block_indices t
  funext j
  show View.canon [⟨r0_2, k0_pay1 (iblk m c 0 t) (iblk m c 1 t) (iblk m c 2 t) (iblk m c 3 t) (iblk m c 4 t)⟩] j
    = blend (V m c main_arg0) (V m c main_arg1) (V m c main_arg2) (V m c main_arg3) (V m c main_arg4)
        (((cfg0.win 5).blk t).view.emb j)
  refine (canon5_eq (iblk m c 0 t) (iblk m c 2 t) (iblk m c 3 t) (iblk m c 1 t) (iblk m c 4 t) j).trans ?_
  have hj0 : (j 0).val < 128 := (j 0).isLt
  have hj1 : (j 1).val < 128 := (j 1).isLt
  have hj2 : (j 2).val < 128 := (j 2).isLt
  have r0 : ((((cfg0.win 5).blk t).view.emb j) 0).val = t.val * 128 + (j 0).val := by
    show win0_5.index t (0 : Fin 3) * 128 + 1 * (j 0).val = _; omega
  have r1 : ((((cfg0.win 5).blk t).view.emb j) 1).val = (j 1).val := by
    show win0_5.index t (1 : Fin 3) * 128 + 1 * (j 1).val = _; omega
  have r2 : ((((cfg0.win 5).blk t).view.emb j) 2).val = (j 2).val := by
    show win0_5.index t (2 : Fin 3) * 128 + 1 * (j 2).val = _; omega
  exact entry_eq_blend _ _ _ _ _ _ _ _ _ _ j _
    (x_block m c t _ _ r0 r1) (W_block m c t _ _ r1 r2) (b_block m c t _ _ r1 r2)
    (mk_block m c t _ _ r0 r1) (me_block m c t _ _ rfl r2)

/-! ## The blocks fill the array -/

/-- An entry of the result is in step `t`'s block iff each of its coordinates is in the block's range. -/
theorem mem_block (t : Fin cfg0.N) (i : S16384x128x128.Idx) :
    i ∈ ((cfg0.win 5).blk t).view.set ↔ ∀ a : Fin 3, win0_5.index t a * S128x128x128.size a ≤ (i a).val
      ∧ (i a).val < win0_5.index t a * S128x128x128.size a + S128x128x128.size a := by
  show i ∈ ((View.whole main_v0).slice (win0_5.rect t)).set ↔ _
  rw [View.set_slice_whole, Rect.mem_set_unit]
  exact Iff.rfl

/-- Every entry (r, c, h) of the result is written by step `r / 128`. -/
theorem covered (i : S16384x128x128.Idx) :
    ∃ t : Fin cfg0.N, (cfg0.win 5).flush t = true ∧ i ∈ ((cfg0.win 5).blk t).view.set := by
  have hN : cfg0.N = 128 := N_0
  have hi0 : (i 0).val < 16384 := (i 0).isLt
  have hi1 : (i 1).val < 128 := (i 1).isLt
  have hi2 : (i 2).val < 128 := (i 2).isLt
  have hlt : (i 0).val / 128 < cfg0.N := by rw [hN]; omega
  refine ⟨⟨(i 0).val / 128, hlt⟩, flush0_5 _, ?_⟩
  obtain ⟨-, -, -, -, -, -, -, -, -, -, e0, e1, e2⟩ := block_indices ⟨(i 0).val / 128, hlt⟩
  rw [mem_block]
  intro a
  match a with
  | ⟨0, _⟩ =>
    show win0_5.index ⟨(i 0).val / 128, hlt⟩ (0 : Fin 3) * 128 ≤ (i 0).val
      ∧ (i 0).val < win0_5.index ⟨(i 0).val / 128, hlt⟩ (0 : Fin 3) * 128 + 128
    rw [e0]; show (i 0).val / 128 * 128 ≤ (i 0).val ∧ (i 0).val < (i 0).val / 128 * 128 + 128; omega
  | ⟨1, _⟩ =>
    show win0_5.index ⟨(i 0).val / 128, hlt⟩ (1 : Fin 3) * 128 ≤ (i 1).val
      ∧ (i 1).val < win0_5.index ⟨(i 0).val / 128, hlt⟩ (1 : Fin 3) * 128 + 128
    rw [e1]; omega
  | ⟨2, _⟩ =>
    show win0_5.index ⟨(i 0).val / 128, hlt⟩ (2 : Fin 3) * 128 ≤ (i 2).val
      ∧ (i 2).val < win0_5.index ⟨(i 0).val / 128, hlt⟩ (2 : Fin 3) * 128 + 128
    rw [e2]; omega

/-! ## The result array, and the run -/

/-- THE RESULT ARRAY after the 128 steps is `blend` of the argument arrays. -/
theorem final_eq_blend (c : Dev nD) :
    (dats m 0 c).arrAt 5 cfg0.N = blend (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq_blend m c t) covered

/-- The kernel's run: it terminates with the result array at `blend` of the arguments, the arguments unchanged. -/
theorem run : θ_run defs (onTc (τ := τ) (main (F := F))) ⟨m, fun _ => 0, ρ⟩ fun r => ∀ c : Dev nD,
      r.2.mem ((c : Thread nD τ).loc main_v0) = blend (m ((c : Thread nD τ).loc main_arg0))
        (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_eq_blend m c), (h c).2⟩) (run_blocks m ρ)

end Cert.KernelIdeal.BlendValue

end
-- ==== Proof.RefBlend.lean ====
/-
  The reference program computes `blend`.

  The reference forms the result in nineteen whole-array steps: every input is first stretched to the full
  [row, column, hidden unit] shape by repeating it along the axes it lacks (`x` and the weights along the hidden
  units, the two tables along the rows, the embedding row along rows and columns), and the arithmetic is then done
  entry by entry on the stretched arrays. Stretching only repeats entries, so reading a stretched array at (r, c, h)
  reads the original at the coordinates it has: (r, c) for `x` and the weights, (c, h) for the tables, (0, h) for
  the embedding. Followed through all nineteen steps, the entry at (r, c, h) is

      (x[r, c] * W[c, h] + b[c, h]) * (1 - mk[r, c]) + me[0, h] * mk[r, c],

  with the operations in this order, which is `blend` word for word. Each step read at an index is a lemma of the
  imported module about the reference's run; what is written here is which input coordinates the composed
  reads arrive at, and that the resulting expression is `blend`'s.
-/
import proofs.«107322_j69664369541889_2_alg».proof.Proof.Gen.ReferenceIdeal.Read
import proofs.«107322_j69664369541889_2_alg».proof.Proof.Blend

noncomputable section

namespace Cert.ReferenceIdeal.BlendValue

open Cert.ReferenceIdeal Cert.ReferenceIdeal.Read Cert.Blend Idealize.ShloMosaic

variable {F : FTy → Type} [FloatOps F]

/-- `x`, repeated along the hidden units, is read at the entry's cell. -/
theorem read_x (i : S16384x128x128.Idx) : idx_main_v0 (idx_main_v2 i) = cell i :=
  funext fun a => Fin.ext (by match a with | ⟨0, _⟩ => rfl | ⟨1, _⟩ => rfl)

/-- The weight table, repeated along the rows, is read at (column, hidden unit). -/
theorem read_W (i : S16384x128x128.Idx) : idx_main_v1 (idx_main_v3 i) = unit i :=
  funext fun a => Fin.ext (by match a with | ⟨0, _⟩ => rfl | ⟨1, _⟩ => rfl)

/-- The bias table, repeated along the rows, is read at (column, hidden unit). -/
theorem read_b (i : S16384x128x128.Idx) : idx_main_v5 (idx_main_v6 i) = unit i :=
  funext fun a => Fin.ext (by match a with | ⟨0, _⟩ => rfl | ⟨1, _⟩ => rfl)

/-- The blend weights inside `1 - mk`, repeated along the hidden units, are read at the entry's cell. -/
theorem read_mk_complement (i : S16384x128x128.Idx) : idx_main_v8 (idx_main_v11 i) = cell i :=
  funext fun a => Fin.ext (by match a with | ⟨0, _⟩ => rfl | ⟨1, _⟩ => rfl)

/-- The embedding row, repeated along rows and columns, is read at (0, hidden unit). -/
theorem read_me (i : S16384x128x128.Idx) : idx_main_v13 (idx_main_v14 i) = hidden i :=
  funext fun a => Fin.ext (by match a with | ⟨0, _⟩ => rfl | ⟨1, _⟩ => rfl)

/-- The blend weights multiplying the embedding, repeated along the hidden units, are read at the entry's cell. -/
theorem read_mk (i : S16384x128x128.Idx) : idx_main_v8 (idx_main_v15 i) = cell i :=
  funext fun a => Fin.ext (by match a with | ⟨0, _⟩ => rfl | ⟨1, _⟩ => rfl)

/-- The reference's result, as a function of its five arguments, is `blend` of them: entry by entry the same
    expression, the stretched arrays read back at the coordinates above. -/
theorem result_eq_blend (x mk : (⟨S16384x128, .f32⟩ : BufTy).Contents (Elt F))
    (W b : (⟨S128x128, .f32⟩ : BufTy).Contents (Elt F)) (me : (⟨S1x128, .f32⟩ : BufTy).Contents (Elt F)) :
    val_main_v17 (F := F) x mk W b me = blend x mk W b me := by
  funext i
  simp only [val_main_v17_apply, val_main_v12_apply, val_main_v7_apply, val_main_v4_apply, val_main_v2_apply,
    val_main_v0_apply, val_main_v3_apply, val_main_v1_apply, val_main_v6_apply, val_main_v5_apply,
    val_main_v11_apply, val_main_v10_apply, val_main_v9_apply, val_main_cst_apply, val_main_v8_apply,
    val_main_v16_apply, val_main_v14_apply, val_main_v13_apply, val_main_v15_apply,
    read_x, read_W, read_b, read_mk_complement, read_me, read_mk]
  rfl

end Cert.ReferenceIdeal.BlendValue

end
-- ==== Proof.lean ====
/-
  The kernel and its reference compute the same array.

  Both programs take a table `x[r, c]`, blend weights `mk[r, c]`, a weight table `W[c, h]`, a bias table
  `b[c, h]` and an embedding row `me[0, h]`, and return

      out[r, c, h] = (x[r, c] * W[c, h] + b[c, h]) * (1 - mk[r, c]) + me[0, h] * mk[r, c]

  (`Cert.Blend.blend`). The kernel produces the result 128 rows at a time, each step computing its rows from the
  rows of `x` and `mk` it was handed and from the whole tables; the reference stretches every input to the full
  shape and does the arithmetic on whole arrays. Neither the tiling nor the stretching changes which input entries
  an output entry is computed from, nor the order of the operations on them, so both results are `blend` of the
  arguments, entry by entry, as the very same expression: no law of arithmetic is needed to identify them, and the
  finiteness of the inputs is not used.

  `Proof/Blend.lean` states `blend`; `Proof/KernelBlend.lean` shows that the kernel's result array ends at `blend`
  of its arguments (each step writes its block of `blend`, and the blocks fill the array); `Proof/RefBlend.lean`
  shows that the reference's result is `blend` of its arguments. Here the two runs are set side by side. The three
  programs terminate without fault and leave their arguments as they found them: for the two kernel programs this is
  the imported frame theorem, for the reference it is part of its imported run. The idealized kernel is the printed
  kernel read over the extended reals with no rewrite applied, so there is nothing to show for that step.
-/
import proofs.«107322_j69664369541889_2_alg».proof.Defs
import proofs.«107322_j69664369541889_2_alg».proof.Proof.Gen.Kernel
import proofs.«107322_j69664369541889_2_alg».proof.Proof.Gen.Kernel.Skeleton
import proofs.«107322_j69664369541889_2_alg».proof.Proof.Gen.Kernel.Launch
import proofs.«107322_j69664369541889_2_alg».proof.Proof.Gen.Kernel.Points
import proofs.«107322_j69664369541889_2_alg».proof.Proof.Gen.Kernel.Frame
import proofs.«107322_j69664369541889_2_alg».proof.Proof.Gen.KernelIdeal
import proofs.«107322_j69664369541889_2_alg».proof.Proof.Gen.KernelIdeal.Skeleton
import proofs.«107322_j69664369541889_2_alg».proof.Proof.Gen.KernelIdeal.Launch
import proofs.«107322_j69664369541889_2_alg».proof.Proof.Gen.KernelIdeal.Points
import proofs.«107322_j69664369541889_2_alg».proof.Proof.Gen.KernelIdeal.Frame
import proofs.«107322_j69664369541889_2_alg».proof.Proof.Gen.ReferenceIdeal
import proofs.«107322_j69664369541889_2_alg».proof.Proof.Gen.Pre_finite_inputs
import proofs.«107322_j69664369541889_2_alg».proof.Proof.Gen.KernelIdeal.Value
import proofs.«107322_j69664369541889_2_alg».proof.Proof.Gen.ReferenceIdeal.Run
import proofs.«107322_j69664369541889_2_alg».proof.Proof.Gen.ReferenceIdeal.Read
import proofs.«107322_j69664369541889_2_alg».proof.Proof.Blend
import proofs.«107322_j69664369541889_2_alg».proof.Proof.KernelBlend
import proofs.«107322_j69664369541889_2_alg».proof.Proof.RefBlend
import Idealize.ShloMosaic.Adequacy
import Idealize.ShloMosaic.Init

noncomputable section

namespace Cert.Proof

open Idealize.ShloMosaic Idealize.ShloMosaic.TcCoe Idealize.SL.Sem

/-- The printed kernel terminates without fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the statement about its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the five arguments, the kernel's result array ends at
    `blend` of its arguments and the reference's result at `blend` of its own, which are the same arrays: the two
    results are equal. -/
theorem algebraic : Cert.algebraic_KernelIdeal_ReferenceIdeal := by
  intro m ρ m' ρ' _ hagree
  refine ⟨_, Cert.KernelIdeal.BlendValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v17_eq _ _ _ _ _).trans
    (Cert.ReferenceIdeal.BlendValue.result_eq_blend _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
